-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000x32 : Shape := ⟨2, ![1600000, 32]⟩
abbrev S1600000x16 : Shape := ⟨2, ![1600000, 16]⟩
abbrev S32x32 : Shape := ⟨2, ![32, 32]⟩
abbrev S16x32 : Shape := ⟨2, ![16, 32]⟩
abbrev S1x32 : Shape := ⟨2, ![1, 32]⟩
abbrev S_ : Shape := ⟨0, ![]⟩

class Facts : Prop where
  bcast_S_S1600000x32 : S_.BroadcastsInDim S1600000x32 (![] : Fin 0 → Fin S1600000x32.rank)
  reducesTo_S1600000x32_S_d0_1 : S1600000x32.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S32x32 : S_.BroadcastsInDim S32x32 (![] : Fin 0 → Fin S32x32.rank)
  reducesTo_S32x32_S_d0_1 : S32x32.ReducesTo [0, 1] S_
  bcast_S_S16x32 : S_.BroadcastsInDim S16x32 (![] : Fin 0 → Fin S16x32.rank)
  reducesTo_S16x32_S_d0_1 : S16x32.ReducesTo [0, 1] S_
  bcast_S_S1x32 : S_.BroadcastsInDim S1x32 (![] : Fin 0 → Fin S1x32.rank)
  reducesTo_S1x32_S_d0_1 : S1x32.ReducesTo [0, 1] S_

variable [Facts]

def fn_part1 {F : FTy → Type} [FloatOps F] (main_arg4 : FVec F S16x32 .f32) (main_arg5 : FVec F S32x32 .f32) (main_arg6 : FVec F S1x32 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S16x32 .f32 := Host.absf main_arg4
  let main_cst_6 : FVec F S_ .f32 := constant S_ .f32 0x7F800000#32
  let main_v20 : FVec F S16x32 .f32 := broadcastInDim S16x32 ![] bcast_S_S16x32 main_cst_6
  let main_v21 : IVec S16x32 1 := cmpf .olt main_v19 main_v20
  let main_c_7 : IVec S_ 1 := constantI S_ 1 1#1
  let main_v22 : IVec S_ 1 := (fun x v => Host.reduce IntOp.andi x v reducesTo_S16x32_S_d0_1 h_S_) main_v21 main_c_7
  let main_v23 : IVec S_ 1 := andi main_v18 main_v22
  let main_v24 : FVec F S32x32 .f32 := Host.absf main_arg5
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S1x32 .f32 := Host.absf main_arg6
  let main_cst_10 : FVec F S_ .f32 := constant S_ .f32 0x7F800000#32
  let main_v30 : FVec F S1x32 .f32 := broadcastInDim S1x32 ![] bcast_S_S1x32 main_cst_10
  let main_v31 : IVec S1x32 1 := cmpf .olt main_v29 main_v30
  let main_c_11 : IVec S_ 1 := constantI S_ 1 1#1
  let main_v32 : IVec S_ 1 := (fun x v => Host.reduce IntOp.andi x v reducesTo_S1x32_S_d0_1 h_S_) main_v31 main_c_11
  let main_v33 : IVec S_ 1 := andi main_v28 main_v32
  main_v33

def fn {F : FTy → Type} [FloatOps F] (main_arg0 : FVec F S1600000x32 .f32) (main_arg1 : FVec F S1600000x16 .f32) (main_arg2 : FVec F S1600000x32 .f32) (main_arg3 : FVec F S32x32 .f32) (main_arg4 : FVec F S16x32 .f32) (main_arg5 : FVec F S32x32 .f32) (main_arg6 : FVec F S1x32 .f32) : IVec S_ 1 :=
  let main_v0 : FVec F S1600000x32 .f32 := Host.absf main_arg0
  let main_cst : FVec F S_ .f32 := constant S_ .f32 0x7F800000#32
  let main_v1 : FVec F S1600000x32 .f32 := broadcastInDim S1600000x32 ![] bcast_S_S1600000x32 main_cst
  let main_v2 : IVec S1600000x32 1 := cmpf .olt main_v0 main_v1
  let main_c : IVec S_ 1 := constantI S_ 1 1#1
  let main_v3 : IVec S_ 1 := (fun x v => Host.reduce IntOp.andi x v reducesTo_S1600000x32_S_d0_1 h_S_) main_v2 main_c
  let main_v4 : FVec F S1600000x16 .f32 := Host.absf main_arg1
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S1600000x32 .f32 := Host.absf main_arg2
  let main_cst_2 : FVec F S_ .f32 := constant S_ .f32 0x7F800000#32
  let main_v10 : FVec F S1600000x32 .f32 := broadcastInDim S1600000x32 ![] bcast_S_S1600000x32 main_cst_2
  let main_v11 : IVec S1600000x32 1 := cmpf .olt main_v9 main_v10
  let main_c_3 : IVec S_ 1 := constantI S_ 1 1#1
  let main_v12 : IVec S_ 1 := (fun x v => Host.reduce IntOp.andi x v reducesTo_S1600000x32_S_d0_1 h_S_) main_v11 main_c_3
  let main_v13 : IVec S_ 1 := andi main_v8 main_v12
  let main_v14 : FVec F S32x32 .f32 := Host.absf main_arg3
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg4 main_arg5 main_arg6 main_v13 main_v16
-- ==== Kernel.lean ====
abbrev S1600000x32 : Shape := ⟨2, ![1600000, 32]⟩
abbrev S1600000x16 : Shape := ⟨2, ![1600000, 16]⟩
abbrev S32x32 : Shape := ⟨2, ![32, 32]⟩
abbrev S16x32 : Shape := ⟨2, ![16, 32]⟩
abbrev S1x32 : Shape := ⟨2, ![1, 32]⟩
abbrev S32x1600000 : Shape := ⟨2, ![32, 1600000]⟩
abbrev S16x1600000 : Shape := ⟨2, ![16, 1600000]⟩
abbrev S32x1 : Shape := ⟨2, ![32, 1]⟩
abbrev S1x32x1x1 : Shape := ⟨4, ![1, 32, 1, 1]⟩
abbrev S1x32x128x1 : Shape := ⟨4, ![1, 32, 128, 1]⟩
abbrev S32x128 : Shape := ⟨2, ![32, 128]⟩
abbrev S32x32000 : Shape := ⟨2, ![32, 32000]⟩
abbrev S16x32000 : Shape := ⟨2, ![16, 32000]⟩

abbrev nBuf : Space → Nat
  | .hbm => 16
  | .vmem => 12
  | .smem => 0
  | _ => 0

abbrev bufTy : (tb : Table) → Fin (tcTables nBuf tb) → BufTy
  | .hbm, ⟨0, _⟩ => ⟨S1600000x32, .f32⟩
  | .hbm, ⟨1, _⟩ => ⟨S1600000x16, .f32⟩
  | .hbm, ⟨2, _⟩ => ⟨S1600000x32, .f32⟩
  | .hbm, ⟨3, _⟩ => ⟨S32x32, .f32⟩
  | .hbm, ⟨4, _⟩ => ⟨S16x32, .f32⟩
  | .hbm, ⟨5, _⟩ => ⟨S32x32, .f32⟩
  | .hbm, ⟨6, _⟩ => ⟨S1x32, .f32⟩
  | .hbm, ⟨7, _⟩ => ⟨S32x1600000, .f32⟩
  | .hbm, ⟨8, _⟩ => ⟨S16x1600000, .f32⟩
  | .hbm, ⟨9, _⟩ => ⟨S32x1600000, .f32⟩
  | .hbm, ⟨10, _⟩ => ⟨S32x1, .f32⟩
  | .hbm, ⟨11, _⟩ => ⟨S1x32x1x1, .f32⟩
  | .hbm, ⟨12, _⟩ => ⟨S1x32x128x1, .f32⟩
  | .hbm, ⟨13, _⟩ => ⟨S32x128, .f32⟩
  | .hbm, ⟨14, _⟩ => ⟨S32x1600000, .f32⟩
  | .hbm, ⟨15, _⟩ => ⟨S1600000x32, .f32⟩
  | .local _ .vmem, ⟨0, _⟩ => ⟨S32x32000, .f32⟩
  | .local _ .vmem, ⟨1, _⟩ => ⟨S32x32000, .f32⟩
  | .local _ .vmem, ⟨2, _⟩ => ⟨S16x32000, .f32⟩
  | .local _ .vmem, ⟨3, _⟩ => ⟨S16x32000, .f32⟩
  | .local _ .vmem, ⟨4, _⟩ => ⟨S32x32000, .f32⟩
  | .local _ .vmem, ⟨5, _⟩ => ⟨S32x32000, .f32⟩
  | .local _ .vmem, ⟨6, _⟩ => ⟨S32x32, .f32⟩
  | .local _ .vmem, ⟨7, _⟩ => ⟨S16x32, .f32⟩
  | .local _ .vmem, ⟨8, _⟩ => ⟨S32x32, .f32⟩
  | .local _ .vmem, ⟨9, _⟩ => ⟨S32x128, .f32⟩
  | .local _ .vmem, ⟨10, _⟩ => ⟨S32x32000, .f32⟩
  | .local _ .vmem, ⟨11, _⟩ => ⟨S32x32000, .f32⟩
  | _, _ => ⟨S1600000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S32x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x32000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x32000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x32000 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S1600000x32_S32x1600000_1_0 : S1600000x32.Transposes [1, 0] S32x1600000
  transposes_S1600000x16_S16x1600000_1_0 : S1600000x16.Transposes [1, 0] S16x1600000
  shapeCasts_S1x32_S32x1 : S1x32.ShapeCasts S32x1
  shapeCasts_S32x1_S1x32x1x1 : S32x1.ShapeCasts S1x32x1x1
  bcast_S1x32x1x1_S1x32x128x1_0_1_2_3 : S1x32x1x1.BroadcastsInDim S1x32x128x1 (![0, 1, 2, 3] : Fin 4 → Fin S1x32x128x1.rank)
  shapeCasts_S1x32x128x1_S32x128 : S1x32x128x1.ShapeCasts S32x128
  inb_S32x32_S32x32_0_0 : ∀ a, (![0, 0] : Fin 2 → Nat) a + S32x32.size a ≤ S32x32.size a
  h_S32x32 : 0 < S32x32.numel
  inb_S32x32000_S32x32000_0_0 : ∀ a, (![0, 0] : Fin 2 → Nat) a + S32x32000.size a ≤ S32x32000.size a
  h_S32x32000 : 0 < S32x32000.numel
  shapeCasts_S32x32000_S32x32000 : S32x32000.ShapeCasts S32x32000
  inb_S16x32_S16x32_0_0 : ∀ a, (![0, 0] : Fin 2 → Nat) a + S16x32.size a ≤ S16x32.size a
  h_S16x32 : 0 < S16x32.numel
  inb_S16x32000_S16x32000_0_0 : ∀ a, (![0, 0] : Fin 2 → Nat) a + S16x32000.size a ≤ S16x32000.size a
  h_S16x32000 : 0 < S16x32000.numel
  shapeCasts_S16x32000_S16x32000 : S16x32000.ShapeCasts S16x32000
  inb_S32x128_S32x128_0_0 : ∀ a, (![0, 0] : Fin 2 → Nat) a + S32x128.size a ≤ S32x128.size a
  h_S32x128 : 0 < S32x128.numel
  shapeCasts_S32x128_S32x128 : S32x128.ShapeCasts S32x128
  slices_S32x128_o0_0_S32x1 : S32x128.Slices ![0, 0] S32x1
  broadcasts_S32x1_S32x32000 : S32x1.Broadcasts S32x32000
  transposes_S32x1600000_S1600000x32_1_0 : S32x1600000.Transposes [1, 0] S1600000x32
  dot_S32x32_S32x32000_S32x32000_0_0_1_1_n_n_wf : DotDims.WF S32x32 S32x32000 S32x32000 [0] [0] [1] [1] [] []
  dot_S16x32_S16x32000_S32x32000_0_0_1_1_n_n_wf : DotDims.WF S16x32 S16x32000 S32x32000 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x32000.size a ≤ S32x1600000.size a
  hwx0_0 : ∀ i : grid0.Coords, EltTy.bits .f32 = 32 ∨ (Rect.block (s := S32x1600000) S32x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x32000.size a ≤ S16x1600000.size a
  hwx0_1 : ∀ i : grid0.Coords, EltTy.bits .f32 = 32 ∨ (Rect.block (s := S16x1600000) S16x32000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x32000.size a ≤ S32x1600000.size a
  hwx0_2 : ∀ i : grid0.Coords, EltTy.bits .f32 = 32 ∨ (Rect.block (s := S32x1600000) S32x32000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x32.size a ≤ S16x32.size a
  hwx0_4 : ∀ i : grid0.Coords, EltTy.bits .f32 = 32 ∨ (Rect.block (s := S16x32) S16x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x128.size a ≤ S32x128.size a
  hwx0_6 : ∀ i : grid0.Coords, EltTy.bits .f32 = 32 ∨ (Rect.block (s := S32x128) S32x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x32000.size a ≤ S32x1600000.size a
  hwx0_7 : ∀ i : grid0.Coords, EltTy.bits .f32 = 32 ∨ (Rect.block (s := S32x1600000) S32x32000.size (cc0_transform_7 i) (hinb0_7 i)).WholeWords (EltTy.packing .f32)

variable [Facts₀]

def dot_S32x32_S32x32000_S32x32000_0_0_1_1_n_n : DotDims S32x32 S32x32000 S32x32000 where
  lhsContracting := [0]
  rhsContracting := [0]
  lhsNonContracting := [1]
  rhsNonContracting := [1]
  lhsBatch := []
  rhsBatch := []
  wf := dot_S32x32_S32x32000_S32x32000_0_0_1_1_n_n_wf
def dot_S16x32_S16x32000_S32x32000_0_0_1_1_n_n : DotDims S16x32 S16x32000 S32x32000 where
  lhsContracting := [0]
  rhsContracting := [0]
  lhsNonContracting := [1]
  rhsNonContracting := [1]
  lhsBatch := []
  rhsBatch := []
  wf := dot_S16x32_S16x32000_S32x32000_0_0_1_1_n_n_wf

abbrev win0_0 : Pipeline.Window sig grid0 :=
  Pipeline.Window.ofSpec (Memref.whole main_v0) S32x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x32000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x32000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S32x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S32x32000.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1600000x32 : Shape := ⟨2, ![1600000, 32]⟩
abbrev S1600000x16 : Shape := ⟨2, ![1600000, 16]⟩
abbrev S32x32 : Shape := ⟨2, ![32, 32]⟩
abbrev S16x32 : Shape := ⟨2, ![16, 32]⟩
abbrev S1x32 : Shape := ⟨2, ![1, 32]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S1600000x32, .f32⟩
  | .hbm, ⟨1, _⟩ => ⟨S1600000x16, .f32⟩
  | .hbm, ⟨2, _⟩ => ⟨S1600000x32, .f32⟩
  | .hbm, ⟨3, _⟩ => ⟨S32x32, .f32⟩
  | .hbm, ⟨4, _⟩ => ⟨S16x32, .f32⟩
  | .hbm, ⟨5, _⟩ => ⟨S32x32, .f32⟩
  | .hbm, ⟨6, _⟩ => ⟨S1x32, .f32⟩
  | .hbm, ⟨7, _⟩ => ⟨S1600000x32, .f32⟩
  | .hbm, ⟨8, _⟩ => ⟨S1600000x32, .f32⟩
  | .hbm, ⟨9, _⟩ => ⟨S1600000x32, .f32⟩
  | .hbm, ⟨10, _⟩ => ⟨S1600000x32, .f32⟩
  | .hbm, ⟨11, _⟩ => ⟨S1600000x32, .f32⟩
  | .hbm, ⟨12, _⟩ => ⟨S1600000x32, .f32⟩
  | .hbm, ⟨13, _⟩ => ⟨S1600000x32, .f32⟩
  | .hbm, ⟨14, _⟩ => ⟨S_, .f32⟩
  | .hbm, ⟨15, _⟩ => ⟨S1600000x32, .f32⟩
  | .hbm, ⟨16, _⟩ => ⟨S1600000x32, .f32⟩
  | _, _ => ⟨S1600000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_cst : Ref sig .tc := ⟨.hbm, 14, rfl⟩
abbrev main_call0_v0 : Ref sig .tc := ⟨.hbm, 15, rfl⟩
abbrev main_v7 : Ref sig .tc := ⟨.hbm, 16, rfl⟩

abbrev nD : Nat := 1
abbrev τ : Topo := Topo.v7x

variable {F : FTy → Type} [FloatOps F]

class Facts₀ : Prop where
  bcast_S1x32_S1600000x32_0_1 : S1x32.BroadcastsInDim S1600000x32 (![0, 1] : Fin 2 → Fin S1600000x32.rank)
  bcast_S_S1600000x32 : S_.BroadcastsInDim S1600000x32 (![] : Fin 0 → Fin S1600000x32.rank)
  dot_S1600000x32_S32x32_S1600000x32_1_0_0_1_n_n_wf : DotDims.WF S1600000x32 S32x32 S1600000x32 [1] [0] [0] [1] [] []
  dot_S1600000x16_S16x32_S1600000x32_1_0_0_1_n_n_wf : DotDims.WF S1600000x16 S16x32 S1600000x32 [1] [0] [0] [1] [] []

variable [Facts₀]

def dot_S1600000x32_S32x32_S1600000x32_1_0_0_1_n_n : DotDims S1600000x32 S32x32 S1600000x32 where
  lhsContracting := [1]
  rhsContracting := [0]
  lhsNonContracting := [0]
  rhsNonContracting := [1]
  lhsBatch := []
  rhsBatch := []
  wf := dot_S1600000x32_S32x32_S1600000x32_1_0_0_1_n_n_wf
def dot_S1600000x16_S16x32_S1600000x32_1_0_0_1_n_n : DotDims S1600000x16 S16x32 S1600000x32 where
  lhsContracting := [1]
  rhsContracting := [0]
  lhsNonContracting := [0]
  rhsNonContracting := [1]
  lhsBatch := []
  rhsBatch := []
  wf := dot_S1600000x16_S16x32_S1600000x32_1_0_0_1_n_n_wf

class Facts : Prop extends Facts₀ where

variable [Facts]
-- ==== Proof.Spec.lean ====
/-
  One message layer of a graph network, on the extended reals.

  For every edge `e` (1 600 000 of them) and every output feature `j` (32 of them) the layer computes

      out e j = max (((∑ k, fsrc e k · w1 k j) + (∑ k, f e k · w2 k j)) + (∑ k, smsg e k · w3 k j) + b 0 j) 0 ,

  three small matrix products (contraction lengths 32, 16, 32), a bias row and a rectifier. The sums are finite
  sums in the commutative monoid of extended reals, so neither their order nor their grouping into blocks matters,
  and the only law used below is commutativity of the product: one program writes each term as `x · w`, the other as
  `w · x`. No finiteness of the inputs is needed for that.

  The same array is also described "edges last": `outT j e = out e j`, the layout in which it is produced when the
  long edge axis is kept minor.
-/
import Idealize.ShloMosaic.PureOps.Ideal
import Idealize.ShloMosaic.Lib.ValueIdx

noncomputable section

open scoped BigOperators

namespace Cert.Msg

open Idealize.ShloMosaic Idealize.ShloMosaic.ValueIdx

/-- Row `e` of `x` against column `j` of `w`, each term written data first: `∑ k, x e k · w k j`. -/
def rowCol {E K N : ℕ} (x : (⟨2, ![E, K]⟩ : Shape).Idx → EReal) (w : (⟨2, ![K, N]⟩ : Shape).Idx → EReal)
    (e : Fin E) (j : Fin N) : EReal :=
  ∑ k : Fin K, x (ix2 e k) * w (ix2 k j)

/-- The same contraction with each term written weight first: `∑ k, w k j · x e k`. -/
def colRow {E K N : ℕ} (x : (⟨2, ![E, K]⟩ : Shape).Idx → EReal) (w : (⟨2, ![K, N]⟩ : Shape).Idx → EReal)
    (e : Fin E) (j : Fin N) : EReal :=
  ∑ k : Fin K, w (ix2 k j) * x (ix2 e k)

/-- The two spellings are one number: the product of extended reals commutes, term by term. -/
theorem colRow_eq {E K N : ℕ} (x : (⟨2, ![E, K]⟩ : Shape).Idx → EReal) (w : (⟨2, ![K, N]⟩ : Shape).Idx → EReal)
    (e : Fin E) (j : Fin N) : colRow x w e j = rowCol x w e j :=
  Finset.sum_congr rfl fun _ _ => mul_comm _ _

/-- The layer at edge `e`, feature `j`, from the three contractions already taken and the bias entry. -/
def act (p1 p2 p3 bias : EReal) : EReal := max (((p1 + p2) + p3) + bias) 0

variable (fsrc : (⟨2, ![1600000, 32]⟩ : Shape).Idx → EReal) (f : (⟨2, ![1600000, 16]⟩ : Shape).Idx → EReal)
  (smsg : (⟨2, ![1600000, 32]⟩ : Shape).Idx → EReal) (w1 : (⟨2, ![32, 32]⟩ : Shape).Idx → EReal)
  (w2 : (⟨2, ![16, 32]⟩ : Shape).Idx → EReal) (w3 : (⟨2, ![32, 32]⟩ : Shape).Idx → EReal)
  (b : (⟨2, ![1, 32]⟩ : Shape).Idx → EReal)

/-- THE LAYER, edges first: entry `(e, j)` of the result. -/
def out : (⟨2, ![1600000, 32]⟩ : Shape).Idx → EReal := fun i =>
  act (rowCol fsrc w1 (i 0 : Fin 1600000) (i 1 : Fin 32)) (rowCol f w2 (i 0 : Fin 1600000) (i 1 : Fin 32))
    (rowCol smsg w3 (i 0 : Fin 1600000) (i 1 : Fin 32)) (b (ix2 (0 : Fin 1) (i 1 : Fin 32)))

/-- The layer, edges last and every product written weight first: entry `(j, e)`. -/
def outT : (⟨2, ![32, 1600000]⟩ : Shape).Idx → EReal := fun i =>
  act (colRow fsrc w1 (i 1 : Fin 1600000) (i 0 : Fin 32)) (colRow f w2 (i 1 : Fin 1600000) (i 0 : Fin 32))
    (colRow smsg w3 (i 1 : Fin 1600000) (i 0 : Fin 32)) (b (ix2 (0 : Fin 1) (i 0 : Fin 32)))

/-- The edges-last array is the transpose of the layer. -/
theorem outT_apply (j : Fin 32) (e : Fin 1600000) :
    outT fsrc f smsg w1 w2 w3 b (ix2 j e) = out fsrc f smsg w1 w2 w3 b (ix2 e j) := by
  show act (colRow fsrc w1 e j) (colRow f w2 e j) (colRow smsg w3 e j) (b (ix2 (0 : Fin 1) j))
    = act (rowCol fsrc w1 e j) (rowCol f w2 e j) (rowCol smsg w3 e j) (b (ix2 (0 : Fin 1) j))
  rw [colRow_eq, colRow_eq, colRow_eq]

end Cert.Msg

end
-- ==== Proof.RefIsSpec.lean ====
/-
  The reference program computes the layer.

  Its result, read one operation at a time, is at entry `(e, j)`

      max (((∑ k, fsrc e k · w1 k j) + (∑ k, f e k · w2 k j)) + (∑ k, smsg e k · w3 k j) + b 0 j) (the zero word),

  which is the layer's definition once the operand indices are named by their coordinates and the zero word is read as
  the number 0.
-/
import proofs.«110322_g36034775613536_cont_8to1_b_1153_10_alg».proof.Proof.Gen.ReferenceIdeal.Read
import proofs.«110322_g36034775613536_cont_8to1_b_1153_10_alg».proof.Proof.Spec

noncomputable section

open scoped BigOperators

namespace Cert.ReferenceIdeal.RefValue

open Cert.ReferenceIdeal Cert.ReferenceIdeal.Read Idealize.ShloMosaic Idealize.ShloMosaic.ValueIdx

/-- Index by index, the reference's last stage is the layer of its seven arguments. -/
theorem result_eq (x0 : S1600000x32.Idx → EReal) (x1 : S1600000x16.Idx → EReal) (x2 : S1600000x32.Idx → EReal)
    (x3 : S32x32.Idx → EReal) (x4 : S16x32.Idx → EReal) (x5 : S32x32.Idx → EReal) (x6 : S1x32.Idx → EReal) :
    val_main_v7 (F := Ideal) x0 x1 x2 x3 x4 x5 x6 = Cert.Msg.out x0 x1 x2 x3 x4 x5 x6 := by
  funext i
  -- the operands' indices, by coordinates
  have l0 : ∀ k : Fin 32, lidx_main_v0 i k = ix2 (i 0 : Fin 1600000) k := fun k =>
    funext fun a => by match a with | ⟨0, _⟩ => rfl | ⟨1, _⟩ => rfl
  have r0 : ∀ k : Fin 32, ridx_main_v0 i k = ix2 k (i 1 : Fin 32) := fun k =>
    funext fun a => by match a with | ⟨0, _⟩ => rfl | ⟨1, _⟩ => rfl
  have l1 : ∀ k : Fin 16, lidx_main_v1 i k = ix2 (i 0 : Fin 1600000) k := fun k =>
    funext fun a => by match a with | ⟨0, _⟩ => rfl | ⟨1, _⟩ => rfl
  have r1 : ∀ k : Fin 16, ridx_main_v1 i k = ix2 k (i 1 : Fin 32) := fun k =>
    funext fun a => by match a with | ⟨0, _⟩ => rfl | ⟨1, _⟩ => rfl
  have l3 : ∀ k : Fin 32, lidx_main_v3 i k = ix2 (i 0 : Fin 1600000) k := fun k =>
    funext fun a => by match a with | ⟨0, _⟩ => rfl | ⟨1, _⟩ => rfl
  have r3 : ∀ k : Fin 32, ridx_main_v3 i k = ix2 k (i 1 : Fin 32) := fun k =>
    funext fun a => by match a with | ⟨0, _⟩ => rfl | ⟨1, _⟩ => rfl
  have e5 : idx_main_v5 i = ix2 (0 : Fin 1) (i 1 : Fin 32) :=
    funext fun a => by match a with | ⟨0, _⟩ => rfl | ⟨1, _⟩ => rfl
  rw [val_main_v7_apply, val_main_v6_apply, val_main_v4_apply, val_main_v2_apply, val_main_v0_apply, val_main_v1_apply,
    val_main_v3_apply, val_main_v5_apply, val_main_call0_v0_apply, val_main_call0_cst_apply]
  simp only [l0, r0, l1, r1, l3, r3, e5]
  show max (((_ + _) + _) + _) (Ideal.ofBits .f32 0x00000000#32) = _
  rw [Ideal.ofBits_zero_f32]
  rfl

end Cert.ReferenceIdeal.RefValue

end
-- ==== Proof.LibMatmulTN.lean ====
/-
  A block product that contracts the FIRST axis of both operands, read at an index.

  For `A : [K, M]` and `B : [K, N]` the dimension numbers "contract axis 0 with axis 0, keep axis 1 of each" describe
  `Aᵀ · B : [M, N]`. On the extended reals, with exact operations, its entry `(a, b)` is the accumulator's entry plus
  `∑ c, A c a · B c b`, a finite sum over the `K` values of the contracted coordinate; into an accumulator of zeros it is
  that sum alone. Nothing here depends on the extents or on the inputs being finite.
-/
import Idealize.ShloMosaic.PureOps.Ideal.Laws
import Idealize.ShloMosaic.Lib.ValueIdx

noncomputable section

open scoped BigOperators

namespace Cert.Lib.MatmulTN

open Idealize.ShloMosaic Idealize.ShloMosaic.ValueIdx

/-- The dimension numbers of `Aᵀ · B`: axis 0 of each operand contracted, axis 1 of each kept, no batch axis. -/
abbrev dims (K M N : ℕ)
    (wf : DotDims.WF (⟨2, ![K, M]⟩ : Shape) (⟨2, ![K, N]⟩ : Shape) (⟨2, ![M, N]⟩ : Shape) [0] [0] [1] [1] [] []) :
    DotDims (⟨2, ![K, M]⟩ : Shape) (⟨2, ![K, N]⟩ : Shape) (⟨2, ![M, N]⟩ : Shape) where
  lhsContracting := [0]
  rhsContracting := [0]
  lhsNonContracting := [1]
  rhsNonContracting := [1]
  lhsBatch := []
  rhsBatch := []
  wf := wf

section
variable {K M N : ℕ}
  (wf : DotDims.WF (⟨2, ![K, M]⟩ : Shape) (⟨2, ![K, N]⟩ : Shape) (⟨2, ![M, N]⟩ : Shape) [0] [0] [1] [1] [] [])

/-- The left operand is read, on its contracted axis, at the contraction coordinate … -/
theorem lhs_0 (i : (⟨2, ![M, N]⟩ : Shape).Idx) (q : (dims K M N wf).contr.Idx) :
    ((dims K M N wf).lhsIdx i q 0).val = (q ⟨0, by rw [DotDims.rank_contr]; exact Nat.one_pos⟩).val :=
  (dims K M N wf).lhsIdx_val_of_single rfl i q

/-- … and on its kept axis at the result's row. -/
theorem lhs_1 (i : (⟨2, ![M, N]⟩ : Shape).Idx) (q : (dims K M N wf).contr.Idx) :
    ((dims K M N wf).lhsIdx i q 1).val = (i 0).val := by
  unfold DotDims.lhsIdx
  rw [dif_neg (show ¬(1 : Fin (⟨2, ![K, M]⟩ : Shape).rank) ∈ (dims K M N wf).lhsBatch from List.not_mem_nil),
    dif_pos (show (1 : Fin (⟨2, ![K, M]⟩ : Shape).rank) ∈ (dims K M N wf).lhsNonContracting from List.mem_singleton.mpr rfl)]
  rfl

/-- The right operand is read, on its contracted axis, at the contraction coordinate … -/
theorem rhs_0 (i : (⟨2, ![M, N]⟩ : Shape).Idx) (q : (dims K M N wf).contr.Idx) :
    ((dims K M N wf).rhsIdx i q 0).val = (q ⟨0, by rw [DotDims.rank_contr]; exact Nat.one_pos⟩).val :=
  (dims K M N wf).rhsIdx_val_of_single rfl i q

/-- … and on its kept axis at the result's column. -/
theorem rhs_1 (i : (⟨2, ![M, N]⟩ : Shape).Idx) (q : (dims K M N wf).contr.Idx) :
    ((dims K M N wf).rhsIdx i q 1).val = (i 1).val := by
  unfold DotDims.rhsIdx
  rw [dif_neg (show ¬(1 : Fin (⟨2, ![K, N]⟩ : Shape).rank) ∈ (dims K M N wf).rhsBatch from List.not_mem_nil),
    dif_pos (show (1 : Fin (⟨2, ![K, N]⟩ : Shape).rank) ∈ (dims K M N wf).rhsNonContracting from List.mem_singleton.mpr rfl)]
  rfl

/-- `Aᵀ · B` added to an accumulator, at `(a, b)`: the accumulator there plus `∑ c, A c a · B c b`. -/
theorem matmul_apply (prec : Option ContractPrecision) (A : FVec Ideal (⟨2, ![K, M]⟩ : Shape) .f32)
    (B : FVec Ideal (⟨2, ![K, N]⟩ : Shape) .f32) (acc : FVec Ideal (⟨2, ![M, N]⟩ : Shape) .f32) (a : Fin M) (b : Fin N) :
    FloatOps.matmul (dims K M N wf) prec A B acc (ix2 a b) = acc (ix2 a b) + ∑ c : Fin K, A (ix2 c a) * B (ix2 c b) := by
  rw [Ideal.matmul_apply, ← Equiv.sum_comp (contrEquiv1 (dims K M N wf) K rfl rfl).symm]
  refine congrArg (acc (ix2 a b) + ·) (Finset.sum_congr rfl fun c _ => ?_)
  have hc := contrEquiv1_symm_val (dims K M N wf) K rfl rfl c
  have el : (dims K M N wf).lhsIdx (ix2 a b) ((contrEquiv1 (dims K M N wf) K rfl rfl).symm c) = ix2 c a :=
    funext fun ax => Fin.ext (by
      match ax with
      | ⟨0, _⟩ => exact (lhs_0 wf _ _).trans hc
      | ⟨1, _⟩ => exact lhs_1 wf _ _)
  have er : (dims K M N wf).rhsIdx (ix2 a b) ((contrEquiv1 (dims K M N wf) K rfl rfl).symm c) = ix2 c b :=
    funext fun ax => Fin.ext (by
      match ax with
      | ⟨0, _⟩ => exact (rhs_0 wf _ _).trans hc
      | ⟨1, _⟩ => exact rhs_1 wf _ _)
  rw [el, er]

/-- Into an accumulator of zeros: `∑ c, A c a · B c b` alone. -/
theorem matmul_zero_apply (prec : Option ContractPrecision) (A : FVec Ideal (⟨2, ![K, M]⟩ : Shape) .f32)
    (B : FVec Ideal (⟨2, ![K, N]⟩ : Shape) .f32) (a : Fin M) (b : Fin N) :
    FloatOps.matmul (dims K M N wf) prec A B (constant (⟨2, ![M, N]⟩ : Shape) .f32 0x00000000#32) (ix2 a b)
      = ∑ c : Fin K, A (ix2 c a) * B (ix2 c b) := by
  rw [matmul_apply]
  show Ideal.ofBits .f32 0x00000000#32 + _ = _
  rw [Ideal.ofBits_zero_f32, zero_add]

end

end Cert.Lib.MatmulTN

end
-- ==== Proof.LibColumn.lean ====
/-
  Column layouts read at an index, over any extents and any element type.

  A row statistic (a maximum, a sum) of an a × b matrix is a vector of a entries; to combine it with the
  matrix again it is first re-laid as an a × 1 column and then repeated along the second axis. Read at (i, j)
  the result is the vector's entry i, whatever j: the two lemmas below say so, one per step.
-/
import Idealize.ShloMosaic.Lib.ValueIdx
import Idealize.ShloMosaic.Lib.Pipeline.Value

namespace Cert.Lib.Column

open Idealize.ShloMosaic Idealize.ShloMosaic.ValueIdx

variable {α : Type}

/-- A vector of `a` entries cast to an `a × 1` column reads, at `(i, u)`, the vector's entry `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column's entry `i`: the unit axis is read at `0`,
    the other axis at the result's own coordinate. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- The two steps together: a vector re-laid as a column and repeated along a second axis reads, at `(i, j)`, the
    vector's entry `i`. -/
theorem broadcastTo_shapeCast_column_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ x hc) hb (ix2 i j) = x (ix1 i) := by
  rw [broadcastTo_a1_ab_apply, shapeCast_a_a1_apply]

end Cert.Lib.Column
-- ==== Proof.Payload.lean ====
/-
  The kernel body's arithmetic, read at one entry of its output block.

  At a grid point the body holds one block of 32 000 edges of each data array, edges last — `d1, d3 : [32, 32000]`,
  `d2 : [16, 32000]` —, the three weight matrices whole — `u1, u3 : [32, 32]`, `u2 : [16, 32]` — and the bias repeated
  along 128 lanes, `c : [32, 128]`. It forms `uᵀ · d` for each pair (contracting the feature axis, which is axis 0 of
  both), adds the three products in order, adds lane 0 of the bias repeated along the edges, and rectifies. So entry
  `(j, q)` of the stored block is

      max (((∑ k, u1 k j · d1 k q) + (∑ k, u2 k j · d2 k q)) + (∑ k, u3 k j · d3 k q) + c j 0) 0 .
-/
import proofs.«110322_g36034775613536_cont_8to1_b_1153_10_alg».proof.Proof.Gen.KernelIdeal.Skeleton
import proofs.«110322_g36034775613536_cont_8to1_b_1153_10_alg».proof.Proof.Spec
import proofs.«110322_g36034775613536_cont_8to1_b_1153_10_alg».proof.Proof.LibMatmulTN
import proofs.«110322_g36034775613536_cont_8to1_b_1153_10_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The two block products' dimension numbers are those of `Aᵀ · B`. -/
theorem dims32 : dot_S32x32_S32x32000_S32x32000_0_0_1_1_n_n
    = Cert.Lib.MatmulTN.dims 32 32 32000 Facts₀.dot_S32x32_S32x32000_S32x32000_0_0_1_1_n_n_wf := rfl
theorem dims16 : dot_S16x32_S16x32000_S32x32000_0_0_1_1_n_n
    = Cert.Lib.MatmulTN.dims 16 32 32000 Facts₀.dot_S16x32_S16x32000_S32x32000_0_0_1_1_n_n_wf := rfl

/-- Lane 0 of the bias block, repeated along the edges: at `(j, q)` it is `c j 0`. -/
theorem bias_apply (c : Vec Ideal S32x128 .f32) (j : Fin 32) (q : Fin 32000) :
    broadcastTo S32x32000 (extractStridedSlice S32x1 ![0, 0] c slices_S32x128_o0_0_S32x1) broadcasts_S32x1_S32x32000
      (ix2 j q) = c (ix2 j (0 : Fin 128)) := by
  rw [Cert.Lib.Column.broadcastTo_a1_ab_apply, slice2_axis1_apply 0 _ _ j (0 : Fin 1) (0 : Fin 128) rfl]

/-- THE BODY AT AN ENTRY: the stored value at `(j, q)`, from the loaded blocks. -/
theorem pay_apply (u1 : Vec Ideal S32x32 .f32) (d1 : Vec Ideal S32x32000 .f32) (u2 : Vec Ideal S16x32 .f32)
    (d2 : Vec Ideal S16x32000 .f32) (u3 : Vec Ideal S32x32 .f32) (d3 : Vec Ideal S32x32000 .f32)
    (c : Vec Ideal S32x128 .f32) (j : Fin 32) (q : Fin 32000) :
    k0_pay1 (F := Ideal) u1 d1 u2 d2 u3 d3 c (ix2 j q)
      = Cert.Msg.act (∑ k : Fin 32, u1 (ix2 k j) * d1 (ix2 k q)) (∑ k : Fin 16, u2 (ix2 k j) * d2 (ix2 k q))
          (∑ k : Fin 32, u3 (ix2 k j) * d3 (ix2 k q)) (c (ix2 j (0 : Fin 128))) := by
  unfold k0_pay1
  simp only [shapeCast_self]
  rw [maximumf_apply, addf_apply, addf_apply, addf_apply, bias_apply]
  simp only [matmul, dims32, dims16]
  rw [Cert.Lib.MatmulTN.matmul_zero_apply, Cert.Lib.MatmulTN.matmul_zero_apply, Cert.Lib.MatmulTN.matmul_zero_apply]
  show max _ (Ideal.ofBits .f32 0x00000000#32) = _
  rw [Ideal.ofBits_zero_f32]
  rfl

/-- THE BODY COMPUTES THE LAYER. Suppose the loaded data blocks hold edges `tt · 32000 + q` (`q < 32000`) of the data
    arrays, edges last; the weight blocks hold the weights; and lane 0 of the bias block holds the bias row. Then the
    stored block's entry `y = (j, q)` is the layer, edges last, at `i = (j, tt · 32000 + q)`. Every product is already
    written weight first on both sides, so this is a rewriting of the operands, term by term. -/
theorem pay_eq_layer (tt : ℕ) (u1 : Vec Ideal S32x32 .f32) (d1 : Vec Ideal S32x32000 .f32) (u2 : Vec Ideal S16x32 .f32)
    (d2 : Vec Ideal S16x32000 .f32) (u3 : Vec Ideal S32x32 .f32) (d3 : Vec Ideal S32x32000 .f32)
    (cc : Vec Ideal S32x128 .f32)
    (fs : S1600000x32.Idx → EReal) (f : S1600000x16.Idx → EReal) (sm : S1600000x32.Idx → EReal)
    (w1 : S32x32.Idx → EReal) (w2 : S16x32.Idx → EReal) (w3 : S32x32.Idx → EReal) (b : S1x32.Idx → EReal)
    (hd1 : ∀ (k : Fin 32) (q : Fin 32000) (e : Fin 1600000), e.val = tt * 32000 + q.val → d1 (ix2 k q) = fs (ix2 e k))
    (hd2 : ∀ (k : Fin 16) (q : Fin 32000) (e : Fin 1600000), e.val = tt * 32000 + q.val → d2 (ix2 k q) = f (ix2 e k))
    (hd3 : ∀ (k : Fin 32) (q : Fin 32000) (e : Fin 1600000), e.val = tt * 32000 + q.val → d3 (ix2 k q) = sm (ix2 e k))
    (hu1 : ∀ (k : Fin 32) (j : Fin 32), u1 (ix2 k j) = w1 (ix2 k j))
    (hu2 : ∀ (k : Fin 16) (j : Fin 32), u2 (ix2 k j) = w2 (ix2 k j))
    (hu3 : ∀ (k : Fin 32) (j : Fin 32), u3 (ix2 k j) = w3 (ix2 k j))
    (hc : ∀ j : Fin 32, cc (ix2 j (0 : Fin 128)) = b (ix2 (0 : Fin 1) j))
    (y : S32x32000.Idx) (i : S32x1600000.Idx) (h0 : (i 0).val = (y 0).val) (h1 : (i 1).val = tt * 32000 + (y 1).val) :
    k0_pay1 (F := Ideal) u1 d1 u2 d2 u3 d3 cc y = Cert.Msg.outT fs f sm w1 w2 w3 b i := by
  obtain ⟨j, q, rfl⟩ : ∃ (j : Fin 32) (q : Fin 32000), y = ix2 j q := ⟨y 0, y 1, eq_ix2 y⟩
  obtain ⟨j', e, rfl⟩ : ∃ (j' : Fin 32) (e : Fin 1600000), i = ix2 j' e := ⟨i 0, i 1, eq_ix2 i⟩
  obtain rfl : j' = j := Fin.ext h0
  have he : e.val = tt * 32000 + q.val := h1
  have e1 : ∀ k : Fin 32, d1 (ix2 k q) = fs (ix2 e k) := fun k => hd1 k q e he
  have e2 : ∀ k : Fin 16, d2 (ix2 k q) = f (ix2 e k) := fun k => hd2 k q e he
  have e3 : ∀ k : Fin 32, d3 (ix2 k q) = sm (ix2 e k) := fun k => hd3 k q e he
  rw [pay_apply]
  show Cert.Msg.act _ _ _ _ = Cert.Msg.act (Cert.Msg.colRow fs w1 e j') (Cert.Msg.colRow f w2 e j')
    (Cert.Msg.colRow sm w3 e j') (b (ix2 (0 : Fin 1) j'))
  unfold Cert.Msg.colRow
  simp only [hu1, hu2, hu3, hc, e1, e2, e3]

end Cert.KernelIdeal.Body

end
-- ==== Proof.HostPrefix.lean ====
/-
  The arrays the kernel is launched on, read at an entry.

  Before the launch the host re-lays each data array edges last — `x1 = fsrcᵀ`, `x2 = fᵀ`, `x3 = smsgᵀ`, so
  `x k e = data e k` — and builds the bias block `bt : [32, 128]` from the bias row `b : [1, 32]` by turning the row
  into a column and repeating it along 128 lanes, so `bt j l = b 0 j` whatever the lane `l`. The reshapes in between
  keep row-major position: `[1,32] → [32,1] → [1,32,1,1]`, the repetition `→ [1,32,128,1]`, then `→ [32,128]`.
  The three weight matrices are passed as they are.
-/
import proofs.«110322_g36034775613536_cont_8to1_b_1153_10_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Launched

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The first data array as launched is the transpose of the first argument. -/
theorem x1_eq (c : Dev nD) : (V m c main_v0 : S32x1600000.Idx → EReal)
    = transpose S32x1600000 [1, 0] (m ((c : Thread nD τ).loc main_arg0)) transposes_S1600000x32_S32x1600000_1_0 := by
  show StableHlo.after hostOps0 (fun b => m (c, b)) (Proc.devRef .tc main_v0) = _
  after_results <;> rfl

/-- The second is the transpose of the second argument. -/
theorem x2_eq (c : Dev nD) : (V m c main_v1 : S16x1600000.Idx → EReal)
    = transpose S16x1600000 [1, 0] (m ((c : Thread nD τ).loc main_arg1)) transposes_S1600000x16_S16x1600000_1_0 := by
  show StableHlo.after hostOps0 (fun b => m (c, b)) (Proc.devRef .tc main_v1) = _
  after_results <;> rfl

/-- The third is the transpose of the third argument. -/
theorem x3_eq (c : Dev nD) : (V m c main_v2 : S32x1600000.Idx → EReal)
    = transpose S32x1600000 [1, 0] (m ((c : Thread nD τ).loc main_arg2)) transposes_S1600000x32_S32x1600000_1_0 := by
  show StableHlo.after hostOps0 (fun b => m (c, b)) (Proc.devRef .tc main_v2) = _
  after_results <;> rfl

/-- The bias block as launched: the bias row re-laid as a column, repeated along the lanes. -/
theorem bt_eq (c : Dev nD) : (V m c main_v6 : S32x128.Idx → EReal)
    = shapeCast S32x128 (broadcastInDim S1x32x128x1 ![0, 1, 2, 3] bcast_S1x32x1x1_S1x32x128x1_0_1_2_3
        (shapeCast S1x32x1x1 (shapeCast S32x1 (m ((c : Thread nD τ).loc main_arg6)) shapeCasts_S1x32_S32x1)
          shapeCasts_S32x1_S1x32x1x1)) shapeCasts_S1x32x128x1_S32x128 := by
  show StableHlo.after hostOps0 (fun b => m (c, b)) (Proc.devRef .tc main_v6) = _
  after_results <;> rfl

/-- Entry `(k, e)` of the first launched data array is entry `(e, k)` of the first argument. -/
theorem x1_apply (c : Dev nD) (k : Fin 32) (e : Fin 1600000) :
    (V m c main_v0 : S32x1600000.Idx → EReal) (ix2 k e)
      = (m ((c : Thread nD τ).loc main_arg0) : S1600000x32.Idx → EReal) (ix2 e k) := by
  rw [x1_eq]; exact transpose_ix2_apply _ _ k e

/-- Entry `(k, e)` of the second is entry `(e, k)` of the second argument. -/
theorem x2_apply (c : Dev nD) (k : Fin 16) (e : Fin 1600000) :
    (V m c main_v1 : S16x1600000.Idx → EReal) (ix2 k e)
      = (m ((c : Thread nD τ).loc main_arg1) : S1600000x16.Idx → EReal) (ix2 e k) := by
  rw [x2_eq]; exact transpose_ix2_apply _ _ k e

/-- Entry `(k, e)` of the third is entry `(e, k)` of the third argument. -/
theorem x3_apply (c : Dev nD) (k : Fin 32) (e : Fin 1600000) :
    (V m c main_v2 : S32x1600000.Idx → EReal) (ix2 k e)
      = (m ((c : Thread nD τ).loc main_arg2) : S1600000x32.Idx → EReal) (ix2 e k) := by
  rw [x3_eq]; exact transpose_ix2_apply _ _ k e

/-- Entry `(j, l)` of the launched bias block is entry `(0, j)` of the bias row, whatever the lane `l`. -/
theorem bt_apply (c : Dev nD) (j : Fin 32) (l : Fin 128) :
    (V m c main_v6 : S32x128.Idx → EReal) (ix2 j l)
      = (m ((c : Thread nD τ).loc main_arg6) : S1x32.Idx → EReal) (ix2 (0 : Fin 1) j) := by
  rw [bt_eq]
  -- [1,32,128,1] → [32,128]: position (j·128 + l) is entry (0, j, l, 0)
  rw [shapeCast_apply _ shapeCasts_S1x32x128x1_S32x128 (ix2 j l) (ix4 (0 : Fin 1) j l (0 : Fin 1)) (by
    rw [Shape.rowMajor_val_four, Shape.rowMajor_val_two]
    show ((0 * 32 + j.val) * 128 + l.val) * 1 + 0 = j.val * 128 + l.val
    omega)]
  -- the repetition along the lanes reads lane 0
  rw [broadcastInDim_apply _ bcast_S1x32x1x1_S1x32x128x1_0_1_2_3 _ (ix4 (0 : Fin 1) j l (0 : Fin 1))
    (ix4 (0 : Fin 1) j (0 : Fin 1) (0 : Fin 1)) (fun a => match a with
      | ⟨0, _⟩ => by show 0 = if (1 : Nat) = 1 then 0 else 0; rw [if_pos rfl]
      | ⟨1, _⟩ => by show j.val = if (32 : Nat) = 1 then 0 else j.val; rw [if_neg (by decide)]
      | ⟨2, _⟩ => by show 0 = if (1 : Nat) = 1 then 0 else l.val; rw [if_pos rfl]
      | ⟨3, _⟩ => by show 0 = if (1 : Nat) = 1 then 0 else 0; rw [if_pos rfl])]
  -- [32,1] → [1,32,1,1]: position j is entry (j, 0)
  rw [shapeCast_apply _ shapeCasts_S32x1_S1x32x1x1 (ix4 (0 : Fin 1) j (0 : Fin 1) (0 : Fin 1)) (ix2 j (0 : Fin 1)) (by
    rw [Shape.rowMajor_val_four, Shape.rowMajor_val_two]
    show j.val * 1 + 0 = ((0 * 32 + j.val) * 1 + 0) * 1 + 0
    omega)]
  -- [1,32] → [32,1]: position j is entry (0, j)
  rw [shapeCast_apply _ shapeCasts_S1x32_S32x1 (ix2 j (0 : Fin 1)) (ix2 (0 : Fin 1) j) (by
    rw [Shape.rowMajor_val_two, Shape.rowMajor_val_two]
    show 0 * 32 + j.val = j.val * 1 + 0
    omega)]

end Cert.KernelIdeal.Launched

end
-- ==== Proof.Blocks.lean ====
/-
  From the body's block to the whole result array.

  The grid has 50 points. At point `t` the three data windows and the output window hold columns
  `t · 32000 … t · 32000 + 31999` of their `[·, 1600000]` arrays (all rows), and the three weight windows and the bias
  window hold their whole arrays. So what point `t` writes back is block `t` of ONE array, the layer edges last; the 50
  blocks tile the 1 600 000 columns (column `n` lies in block `n / 32000`), hence after the run the output array IS that
  array.
-/
import proofs.«110322_g36034775613536_cont_8to1_b_1153_10_alg».proof.Proof.Gen.KernelIdeal.Frame
import proofs.«110322_g36034775613536_cont_8to1_b_1153_10_alg».proof.Proof.Spec
import proofs.«110322_g36034775613536_cont_8to1_b_1153_10_alg».proof.Proof.Payload
import proofs.«110322_g36034775613536_cont_8to1_b_1153_10_alg».proof.Proof.HostPrefix
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The layer, edges last, of the seven argument arrays as launched on core `c`. -/
abbrev layerT (c : Dev nD) : S32x1600000.Idx → EReal :=
  Cert.Msg.outT (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

theorem zero_offsets : (![0, 0] : Fin 2 → Nat) = fun _ => 0 := funext fun a => by fin_cases a <;> rfl

/-- Which block each window holds at point `t`: block `(0, t)` for the data and the output, block `(0, 0)` for the
    weights and the bias. Decided over the 50 points. -/
theorem block_index : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = t.val :=
  (by decide +kernel : ∀ t : Fin grid0.N, _)

/-! ## What the input blocks hold -/

/-- The first data block at point `t`: entry `(k, q)` is the first argument at `(t · 32000 + q, k)`. -/
theorem d1_apply (c : Dev nD) (t : Fin cfg0.N) (k : Fin 32) (q : Fin 32000) (e : Fin 1600000)
    (he : e.val = t.val * 32000 + q.val) :
    iblk m c 0 t (ix2 k q) = (m ((c : Thread nD τ).loc main_arg0) : S1600000x32.Idx → EReal) (ix2 e k) := by
  refine Eq.trans ?_ (Launched.x1_apply m c k e)
  show V m c main_v0 (((cfg0.win 0).blk t).view.emb (ix2 k q)) = V m c main_v0 (ix2 k e)
  obtain ⟨h0, h1, -⟩ := block_index t
  refine congrArg (V m c main_v0) (funext fun a => Fin.ext ?_)
  match a with
  | ⟨0, _⟩ => show win0_0.index t (0 : Fin 2) * 32 + 1 * k.val = k.val; omega
  | ⟨1, _⟩ => show win0_0.index t (1 : Fin 2) * 32000 + 1 * q.val = e.val; omega

/-- The second data block: entry `(k, q)` is the second argument at `(t · 32000 + q, k)`. -/
theorem d2_apply (c : Dev nD) (t : Fin cfg0.N) (k : Fin 16) (q : Fin 32000) (e : Fin 1600000)
    (he : e.val = t.val * 32000 + q.val) :
    iblk m c 1 t (ix2 k q) = (m ((c : Thread nD τ).loc main_arg1) : S1600000x16.Idx → EReal) (ix2 e k) := by
  refine Eq.trans ?_ (Launched.x2_apply m c k e)
  show V m c main_v1 (((cfg0.win 1).blk t).view.emb (ix2 k q)) = V m c main_v1 (ix2 k e)
  obtain ⟨-, -, h0, h1, -⟩ := block_index t
  refine congrArg (V m c main_v1) (funext fun a => Fin.ext ?_)
  match a with
  | ⟨0, _⟩ => show win0_1.index t (0 : Fin 2) * 16 + 1 * k.val = k.val; omega
  | ⟨1, _⟩ => show win0_1.index t (1 : Fin 2) * 32000 + 1 * q.val = e.val; omega

/-- The third data block: entry `(k, q)` is the third argument at `(t · 32000 + q, k)`. -/
theorem d3_apply (c : Dev nD) (t : Fin cfg0.N) (k : Fin 32) (q : Fin 32000) (e : Fin 1600000)
    (he : e.val = t.val * 32000 + q.val) :
    iblk m c 2 t (ix2 k q) = (m ((c : Thread nD τ).loc main_arg2) : S1600000x32.Idx → EReal) (ix2 e k) := by
  refine Eq.trans ?_ (Launched.x3_apply m c k e)
  show V m c main_v2 (((cfg0.win 2).blk t).view.emb (ix2 k q)) = V m c main_v2 (ix2 k e)
  obtain ⟨-, -, -, -, h0, h1, -⟩ := block_index t
  refine congrArg (V m c main_v2) (funext fun a => Fin.ext ?_)
  match a with
  | ⟨0, _⟩ => show win0_2.index t (0 : Fin 2) * 32 + 1 * k.val = k.val; omega
  | ⟨1, _⟩ => show win0_2.index t (1 : Fin 2) * 32000 + 1 * q.val = e.val; omega

/-- The first weight block is the fourth argument, whole. -/
theorem u1_apply (c : Dev nD) (t : Fin cfg0.N) (k : Fin 32) (j : Fin 32) :
    iblk m c 3 t (ix2 k j) = (m ((c : Thread nD τ).loc main_arg3) : S32x32.Idx → EReal) (ix2 k j) := by
  refine Eq.trans ?_ (congrFun (V_main_arg3 m c) (ix2 k j))
  show V m c main_arg3 (((cfg0.win 3).blk t).view.emb (ix2 k j)) = V m c main_arg3 (ix2 k j)
  obtain ⟨-, -, -, -, -, -, h0, h1, -⟩ := block_index t
  refine congrArg (V m c main_arg3) (funext fun a => Fin.ext ?_)
  match a with
  | ⟨0, _⟩ => show win0_3.index t (0 : Fin 2) * 32 + 1 * k.val = k.val; omega
  | ⟨1, _⟩ => show win0_3.index t (1 : Fin 2) * 32 + 1 * j.val = j.val; omega

/-- The second weight block is the fifth argument, whole. -/
theorem u2_apply (c : Dev nD) (t : Fin cfg0.N) (k : Fin 16) (j : Fin 32) :
    iblk m c 4 t (ix2 k j) = (m ((c : Thread nD τ).loc main_arg4) : S16x32.Idx → EReal) (ix2 k j) := by
  refine Eq.trans ?_ (congrFun (V_main_arg4 m c) (ix2 k j))
  show V m c main_arg4 (((cfg0.win 4).blk t).view.emb (ix2 k j)) = V m c main_arg4 (ix2 k j)
  obtain ⟨-, -, -, -, -, -, -, -, h0, h1, -⟩ := block_index t
  refine congrArg (V m c main_arg4) (funext fun a => Fin.ext ?_)
  match a with
  | ⟨0, _⟩ => show win0_4.index t (0 : Fin 2) * 16 + 1 * k.val = k.val; omega
  | ⟨1, _⟩ => show win0_4.index t (1 : Fin 2) * 32 + 1 * j.val = j.val; omega

/-- The third weight block is the sixth argument, whole. -/
theorem u3_apply (c : Dev nD) (t : Fin cfg0.N) (k : Fin 32) (j : Fin 32) :
    iblk m c 5 t (ix2 k j) = (m ((c : Thread nD τ).loc main_arg5) : S32x32.Idx → EReal) (ix2 k j) := by
  refine Eq.trans ?_ (congrFun (V_main_arg5 m c) (ix2 k j))
  show V m c main_arg5 (((cfg0.win 5).blk t).view.emb (ix2 k j)) = V m c main_arg5 (ix2 k j)
  obtain ⟨-, -, -, -, -, -, -, -, -, -, h0, h1, -⟩ := block_index t
  refine congrArg (V m c main_arg5) (funext fun a => Fin.ext ?_)
  match a with
  | ⟨0, _⟩ => show win0_5.index t (0 : Fin 2) * 32 + 1 * k.val = k.val; omega
  | ⟨1, _⟩ => show win0_5.index t (1 : Fin 2) * 32 + 1 * j.val = j.val; omega

/-- Lane 0 of the bias block is the bias row. -/
theorem bias_lane0 (c : Dev nD) (t : Fin cfg0.N) (j : Fin 32) :
    iblk m c 6 t (ix2 j (0 : Fin 128)) = (m ((c : Thread nD τ).loc main_arg6) : S1x32.Idx → EReal) (ix2 (0 : Fin 1) j) := by
  refine Eq.trans ?_ (Launched.bt_apply m c j (0 : Fin 128))
  show V m c main_v6 (((cfg0.win 6).blk t).view.emb (ix2 j (0 : Fin 128))) = V m c main_v6 (ix2 j (0 : Fin 128))
  obtain ⟨-, -, -, -, -, -, -, -, -, -, -, -, h0, h1, -⟩ := block_index t
  refine congrArg (V m c main_v6) (funext fun a => Fin.ext ?_)
  match a with
  | ⟨0, _⟩ => show win0_6.index t (0 : Fin 2) * 32 + 1 * j.val = j.val; omega
  | ⟨1, _⟩ => show win0_6.index t (1 : Fin 2) * 128 + 1 * 0 = 0; omega

/-! ## What a point writes back -/

/-- WHAT POINT `t` WRITES BACK is block `t` of the layer, edges last. -/
theorem flushed_eq (c : Dev nD) (t : Fin cfg0.N) :
    (dats m 0 c).flushed 7 t = ((cfg0.win 7).blk t).view.read (Elt Ideal) (layerT m c) := by
  show (cfg0.win 7).cut (grid0.coords t) ((dats m 0 c).after 7 t) = _
  rw [after0_7]
  unfold out0_7
  rw [View.canon_unit_zero zero_offsets]
  simp only [View.ld_unit_zero (S := S32x32) zero_offsets, View.ld_unit_zero (S := S32x32000) zero_offsets,
    View.ld_unit_zero (S := S16x32) zero_offsets, View.ld_unit_zero (S := S16x32000) zero_offsets,
    View.ld_unit_zero (S := S32x128) zero_offsets]
  obtain ⟨-, -, -, -, -, -, -, -, -, -, -, -, -, -, h0, h1⟩ := block_index t
  funext y
  show k0_pay1 (F := Ideal) (iblk m c 3 t) (iblk m c 0 t) (iblk m c 4 t) (iblk m c 1 t) (iblk m c 5 t) (iblk m c 2 t)
      (iblk m c 6 t) y = layerT m c (((cfg0.win 7).blk t).view.emb y)
  exact Body.pay_eq_layer t.val (iblk m c 3 t) (iblk m c 0 t) (iblk m c 4 t) (iblk m c 1 t) (iblk m c 5 t)
    (iblk m c 2 t) (iblk m c 6 t) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))
    (d1_apply m c t) (d2_apply m c t) (d3_apply m c t) (u1_apply m c t) (u2_apply m c t) (u3_apply m c t)
    (bias_lane0 m c t) y (((cfg0.win 7).blk t).view.emb y)
    (by show win0_7.index t (0 : Fin 2) * 32 + 1 * (y 0).val = (y 0).val; omega)
    (by show win0_7.index t (1 : Fin 2) * 32000 + 1 * (y 1).val = t.val * 32000 + (y 1).val; omega)

/-! ## The blocks tile the array -/

/-- An index of the output array is in point `t`'s block iff each coordinate is in the block's range on its axis. -/
theorem mem_block (t : Fin cfg0.N) (i : S32x1600000.Idx) :
    i ∈ ((cfg0.win 7).blk t).view.set ↔ ∀ a : Fin 2, win0_7.index t a * S32x32000.size a ≤ (i a).val
      ∧ (i a).val < win0_7.index t a * S32x32000.size a + S32x32000.size a := by
  show i ∈ ((View.whole main_v7).slice (win0_7.rect t)).set ↔ _
  rw [View.set_slice_whole, Rect.mem_set_unit]
  exact Iff.rfl

/-- Every index is in the block of the point that its column, divided by the block width, names. -/
theorem cover (i : S32x1600000.Idx) :
    ∃ t : Fin cfg0.N, (cfg0.win 7).flush t = true ∧ i ∈ ((cfg0.win 7).blk t).view.set := by
  have hi0 : (i 0).val < 32 := (i 0).isLt
  have hi1 : (i 1).val < 1600000 := (i 1).isLt
  have ht : (i 1).val / 32000 < cfg0.N := Nat.lt_of_lt_of_eq (by omega : (i 1).val / 32000 < 50) N_0.symm
  refine ⟨⟨(i 1).val / 32000, ht⟩, flush0_7 _, ?_⟩
  rw [mem_block]
  obtain ⟨-, -, -, -, -, -, -, -, -, -, -, -, -, -, h0, h1⟩ := block_index ⟨(i 1).val / 32000, ht⟩
  have h1' : win0_7.index ⟨(i 1).val / 32000, ht⟩ (1 : Fin 2) = (i 1).val / 32000 := h1
  intro a
  match a with
  | ⟨0, _⟩ =>
    show win0_7.index ⟨(i 1).val / 32000, ht⟩ (0 : Fin 2) * 32 ≤ (i 0).val
      ∧ (i 0).val < win0_7.index ⟨(i 1).val / 32000, ht⟩ (0 : Fin 2) * 32 + 32
    omega
  | ⟨1, _⟩ =>
    show win0_7.index ⟨(i 1).val / 32000, ht⟩ (1 : Fin 2) * 32000 ≤ (i 1).val
      ∧ (i 1).val < win0_7.index ⟨(i 1).val / 32000, ht⟩ (1 : Fin 2) * 32000 + 32000
    omega

/-- THE OUTPUT ARRAY AFTER THE RUN is the layer, edges last. -/
theorem final (c : Dev nD) : (dats m 0 c).arrAt 7 cfg0.N = layerT m c :=
  (dats m 0 c).arrAt_eq_of_cover 7 (layerT m c) (fun t _ => flushed_eq m c t) cover

end Cert.KernelIdeal.Blocks

end
-- ==== Proof.KernelRun.lean ====
/-
  The kernel program's run, read to the end.

  After the launch the output array holds the layer edges last (one block per grid point, the blocks tiling it); the
  one host operation after the launch transposes it, and the transpose of "edges last, products written weight first"
  is the layer itself: entry `(e, j)` reads entry `(j, e)`, and each product commutes. The seven argument arrays are
  left as they were: three are staged whole and only read, the other four are touched by no operation after launch.
-/
import proofs.«110322_g36034775613536_cont_8to1_b_1153_10_alg».proof.Proof.Gen.KernelIdeal.Frame
import proofs.«110322_g36034775613536_cont_8to1_b_1153_10_alg».proof.Proof.Spec
import proofs.«110322_g36034775613536_cont_8to1_b_1153_10_alg».proof.Proof.Blocks
import Idealize.ShloMosaic.Lib.StableHlo.Run
import Idealize.ShloMosaic.Lib.ValueIdx
import Idealize.ShloMosaic.Lib.ValueLayout

set_option maxRecDepth 16384

noncomputable section

namespace Cert.KernelIdeal.Result

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-- The layer of the seven argument arrays as launched on core `c`. -/
abbrev layer (c : Dev nD) : S1600000x32.Idx → EReal :=
  Cert.Msg.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

/-- THE RESULT BUFFER after the host's transpose of the output array is the layer. -/
theorem tail_eq (c : Dev nD) :
    (Pipeline.afterTail₀ cfgs (dats m) 0 (V0 m) [hostOps1] c main_v8 : S1600000x32.Idx → EReal) = layer m c := by
  unfold Pipeline.afterTail₀
  show StableHlo.after hostOps1 _ (Proc.devRef .tc main_v8) = _
  after_results
  have hw : Pipeline.withArrays (cfgs 0).spec c (V0 m c) (fun w => (dats m 0 c).arrAt w (cfgs 0).N)
      (Proc.devRef .tc main_v7) = Blocks.layerT m c :=
    (Pipeline.withArrays_arr spec0 launch0.win.arr_inj c _ _ 7).trans (Blocks.final m c)
  rw [hw]
  funext i
  obtain ⟨e, j, rfl⟩ : ∃ (e : Fin 1600000) (j : Fin 32), i = ix2 e j := ⟨i 0, i 1, eq_ix2 i⟩
  rw [transpose_ix2_apply]
  exact Cert.Msg.outT_apply _ _ _ _ _ _ _ j e

/-- THE RUN: every weakly fair execution terminates with the result buffer at the layer of the arguments and the
    arguments unchanged. -/
theorem run : θ_run defs (onTc (τ := τ) (main (F := Ideal))) ⟨m, fun _ => 0, ρ⟩ (fun r => ∀ c : Dev nD,
      r.2.mem ((c.tc : Thread nD τ).loc main_v8) = layer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c)⟩)
    (run_main m ρ)

end Cert.KernelIdeal.Result

end
-- ==== Proof.lean ====
/-
  A message layer of a graph network, `relu (fsrc · w1 + f · w2 + smsg · w3 + b)` over 1 600 000 edges, computed two ways.

  The reference forms the three matrix products on arrays laid out edges first, adds them in order, adds the bias row
  and takes the maximum with 0. The kernel keeps the long edge axis last: it transposes the three data arrays, streams
  them through 50 blocks of 32 000 edges, forms `wᵀ · x` for each pair in every block, adds the products in the same
  order, adds the bias (carried as a column repeated along lanes) and rectifies, and at the end transposes the result
  back. On the extended reals with exact operations both end at

      out e j = max (((∑ k, fsrc e k · w1 k j) + (∑ k, f e k · w2 k j)) + (∑ k, smsg e k · w3 k j) + b 0 j) 0 ,

  the kernel writing each product as `w · x` where the reference writes `x · w`. The one law that joins the two sides is
  commutativity of the product of extended reals, term by term under finite sums; the order of additions is the same on
  both sides and no distributivity or cancellation is used, so the finiteness of the inputs is never needed. Blocking
  changes nothing: each entry of the result depends on one edge only, and the 50 blocks tile the edges.

  The three frame claims are the generated frame runs (the reference's is its generated run with the result dropped);
  the idealization rewrote no operation, so `preserves` is `True`.
-/
import proofs.«110322_g36034775613536_cont_8to1_b_1153_10_alg».proof.Defs
import proofs.«110322_g36034775613536_cont_8to1_b_1153_10_alg».proof.Proof.Gen.Kernel
import proofs.«110322_g36034775613536_cont_8to1_b_1153_10_alg».proof.Proof.Gen.Kernel.Skeleton
import proofs.«110322_g36034775613536_cont_8to1_b_1153_10_alg».proof.Proof.Gen.Kernel.Launch
import proofs.«110322_g36034775613536_cont_8to1_b_1153_10_alg».proof.Proof.Gen.Kernel.Points
import proofs.«110322_g36034775613536_cont_8to1_b_1153_10_alg».proof.Proof.Gen.Kernel.Frame
import proofs.«110322_g36034775613536_cont_8to1_b_1153_10_alg».proof.Proof.Gen.KernelIdeal
import proofs.«110322_g36034775613536_cont_8to1_b_1153_10_alg».proof.Proof.Gen.KernelIdeal.Skeleton
import proofs.«110322_g36034775613536_cont_8to1_b_1153_10_alg».proof.Proof.Gen.KernelIdeal.Launch
import proofs.«110322_g36034775613536_cont_8to1_b_1153_10_alg».proof.Proof.Gen.KernelIdeal.Points
import proofs.«110322_g36034775613536_cont_8to1_b_1153_10_alg».proof.Proof.Gen.KernelIdeal.Frame
import proofs.«110322_g36034775613536_cont_8to1_b_1153_10_alg».proof.Proof.Gen.ReferenceIdeal
import proofs.«110322_g36034775613536_cont_8to1_b_1153_10_alg».proof.Proof.Gen.ReferenceIdeal.Run
import proofs.«110322_g36034775613536_cont_8to1_b_1153_10_alg».proof.Proof.Gen.ReferenceIdeal.Read
import proofs.«110322_g36034775613536_cont_8to1_b_1153_10_alg».proof.Proof.Gen.Pre_finite_inputs
import proofs.«110322_g36034775613536_cont_8to1_b_1153_10_alg».proof.Proof.Spec
import proofs.«110322_g36034775613536_cont_8to1_b_1153_10_alg».proof.Proof.RefIsSpec
import proofs.«110322_g36034775613536_cont_8to1_b_1153_10_alg».proof.Proof.KernelRun
import Idealize.ShloMosaic.Adequacy
import Idealize.ShloMosaic.Init

noncomputable section

namespace Cert.Proof

open Idealize.ShloMosaic Idealize.SL.Sem

/-- The word-level kernel terminates without a fault and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten when the kernel was read on the extended reals: nothing to preserve. -/
theorem preserves : Cert.preserves_Kernel_KernelIdeal := trivial

/-- From memories that agree on the seven arguments both programs end with the layer of those arguments in their
    result buffers, the arguments unchanged: the kernel by its blocks and the final transpose, the reference operation by
    operation. -/
theorem algebraic : Cert.algebraic_KernelIdeal_ReferenceIdeal := by
  intro m ρ m' ρ' _ hagree
  refine ⟨fun c => Cert.Msg.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v7_eq, Cert.ReferenceIdeal.RefValue.result_eq, a0, a1, a2, a3, a4, a5, a6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
